-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144 : Shape := ⟨2, ![8, 262144]⟩
abbrev S256x4 : Shape := ⟨2, ![256, 4]⟩
abbrev S_ : Shape := ⟨0, ![]⟩

class Facts : Prop where
  bcast_S_S8x262144 : S_.BroadcastsInDim S8x262144 (![] : Fin 0 → Fin S8x262144.rank)
  reducesTo_S8x262144_S_d0_1 : S8x262144.ReducesTo [0, 1] S_
  h_S_ : 0 < S_.numel
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S8x262144 .f32) (main_arg1 : FVec F S256x4 .f32) : IVec S_ 1 :=
  let main_v0 : FVec F S8x262144 .f32 := Host.absf main_arg0
  let main_cst : FVec F S_ .f32 := constant S_ .f32 0x7F800000#32
  let main_v1 : FVec F S8x262144 .f32 := broadcastInDim S8x262144 ![] bcast_S_S8x262144 main_cst
  let main_v2 : IVec S8x262144 1 := cmpf .olt main_v0 main_v1
  let main_c : IVec S_ 1 := constantI S_ 1 1#1
  let main_v3 : IVec S_ 1 := (fun x v => Host.reduce IntOp.andi x v reducesTo_S8x262144_S_d0_1 h_S_) main_v2 main_c
  let main_v4 : FVec F S256x4 .f32 := Host.absf main_arg1
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  main_v8
-- ==== Kernel.lean ====
abbrev S8x262144 : Shape := ⟨2, ![8, 262144]⟩
abbrev S256x4 : Shape := ⟨2, ![256, 4]⟩
abbrev S8x65536x4 : Shape := ⟨3, ![8, 65536, 4]⟩
abbrev S1x4096x4 : Shape := ⟨3, ![1, 4096, 4]⟩
abbrev S4096x4 : Shape := ⟨2, ![4096, 4]⟩
abbrev S4096 : Shape := ⟨1, ![4096]⟩
abbrev S4096x1 : Shape := ⟨2, ![4096, 1]⟩
abbrev S256 : Shape := ⟨1, ![256]⟩
abbrev S4096x256 : Shape := ⟨2, ![4096, 256]⟩
abbrev S1x256 : Shape := ⟨2, ![1, 256]⟩

abbrev nBuf : Space → Nat
  | .hbm => 5
  | .vmem => 5
  | .smem => 0
  | _ => 0

abbrev bufTy : (tb : Table) → Fin (tcTables nBuf tb) → BufTy
  | .hbm, ⟨0, _⟩ => ⟨S8x262144, .f32⟩
  | .hbm, ⟨1, _⟩ => ⟨S256x4, .f32⟩
  | .hbm, ⟨2, _⟩ => ⟨S8x65536x4, .f32⟩
  | .hbm, ⟨3, _⟩ => ⟨S8x65536x4, .f32⟩
  | .hbm, ⟨4, _⟩ => ⟨S8x262144, .f32⟩
  | .local _ .vmem, ⟨0, _⟩ => ⟨S1x4096x4, .f32⟩
  | .local _ .vmem, ⟨1, _⟩ => ⟨S1x4096x4, .f32⟩
  | .local _ .vmem, ⟨2, _⟩ => ⟨S256x4, .f32⟩
  | .local _ .vmem, ⟨3, _⟩ => ⟨S1x4096x4, .f32⟩
  | .local _ .vmem, ⟨4, _⟩ => ⟨S1x4096x4, .f32⟩
  | _, _ => ⟨S8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x262144_S8x65536x4 : S8x262144.ShapeCasts S8x65536x4
  inb_S1x4096x4_S1x4096x4_0_0_0 : ∀ a, (![0, 0, 0] : Fin 3 → Nat) a + S1x4096x4.size a ≤ S1x4096x4.size a
  h_S1x4096x4 : 0 < S1x4096x4.numel
  shapeCasts_S1x4096x4_S4096x4 : S1x4096x4.ShapeCasts S4096x4
  inb_S256x4_S256x4_0_0 : ∀ a, (![0, 0] : Fin 2 → Nat) a + S256x4.size a ≤ S256x4.size a
  h_S256x4 : 0 < S256x4.numel
  reduces_S4096x4_S4096 : S4096x4.Reduces [1] S4096
  shapeCasts_S4096_S4096x1 : S4096.ShapeCasts S4096x1
  reduces_S256x4_S256 : S256x4.Reduces [1] S256
  bitsLt_bf16_f32 : FTy.bits .bf16 < FTy.bits .f32
  broadcasts_S4096x1_S4096x256 : S4096x1.Broadcasts S4096x256
  shapeCasts_S256_S1x256 : S256.ShapeCasts S1x256
  broadcasts_S1x256_S4096x256 : S1x256.Broadcasts S4096x256
  reduces_S4096x256_S4096 : S4096x256.Reduces [1] S4096
  shapeCasts_S4096x4_S1x4096x4 : S4096x4.ShapeCasts S1x4096x4
  shapeCasts_S8x65536x4_S8x262144 : S8x65536x4.ShapeCasts S8x262144
  dot_S4096x4_S256x4_S4096x256_1_1_0_0_n_n_wf : DotDims.WF S4096x4 S256x4 S4096x256 [1] [1] [0] [0] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x4.size a ≤ S8x65536x4.size a
  hwx0_0 : ∀ i : grid0.Coords, EltTy.bits .f32 = 32 ∨ (Rect.block (s := S8x65536x4) S1x4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S256x4.size a
  hwx0_1 : ∀ i : grid0.Coords, EltTy.bits .f32 = 32 ∨ (Rect.block (s := S256x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x4.size a ≤ S8x65536x4.size a
  hwx0_2 : ∀ i : grid0.Coords, EltTy.bits .f32 = 32 ∨ (Rect.block (s := S8x65536x4) S1x4096x4.size (cc0_transform_2 i) (hinb0_2 i)).WholeWords (EltTy.packing .f32)

variable [Facts₀]

def dot_S4096x4_S256x4_S4096x256_1_1_0_0_n_n : DotDims S4096x4 S256x4 S4096x256 where
  lhsContracting := [1]
  rhsContracting := [1]
  lhsNonContracting := [0]
  rhsNonContracting := [0]
  lhsBatch := []
  rhsBatch := []
  wf := dot_S4096x4_S256x4_S4096x256_1_1_0_0_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_v0) S1x4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x262144 : Shape := ⟨2, ![8, 262144]⟩
abbrev S256x4 : Shape := ⟨2, ![256, 4]⟩
abbrev S8x65536x4 : Shape := ⟨3, ![8, 65536, 4]⟩
abbrev S_ : Shape := ⟨0, ![]⟩
abbrev S8x65536 : Shape := ⟨2, ![8, 65536]⟩
abbrev S8x65536x1 : Shape := ⟨3, ![8, 65536, 1]⟩
abbrev S256 : Shape := ⟨1, ![256]⟩
abbrev S8x65536x256 : Shape := ⟨3, ![8, 65536, 256]⟩
abbrev S1x1x256 : Shape := ⟨3, ![1, 1, 256]⟩

abbrev nBuf : Space → Nat
  | .hbm => 39
  | .vmem => 0
  | .smem => 0
  | _ => 0

abbrev bufTy : (tb : Table) → Fin (tcTables nBuf tb) → BufTy
  | .hbm, ⟨0, _⟩ => ⟨S8x262144, .f32⟩
  | .hbm, ⟨1, _⟩ => ⟨S256x4, .f32⟩
  | .hbm, ⟨2, _⟩ => ⟨S8x65536x4, .f32⟩
  | .hbm, ⟨3, _⟩ => ⟨S8x65536x4, .f32⟩
  | .hbm, ⟨4, _⟩ => ⟨S_, .f32⟩
  | .hbm, ⟨5, _⟩ => ⟨S8x65536, .f32⟩
  | .hbm, ⟨6, _⟩ => ⟨S8x65536x1, .f32⟩
  | .hbm, ⟨7, _⟩ => ⟨S256x4, .f32⟩
  | .hbm, ⟨8, _⟩ => ⟨S_, .f32⟩
  | .hbm, ⟨9, _⟩ => ⟨S256, .f32⟩
  | .hbm, ⟨10, _⟩ => ⟨S8x65536x256, .f32⟩
  | .hbm, ⟨11, _⟩ => ⟨S_, .f32⟩
  | .hbm, ⟨12, _⟩ => ⟨S8x65536x256, .f32⟩
  | .hbm, ⟨13, _⟩ => ⟨S8x65536x256, .f32⟩
  | .hbm, ⟨14, _⟩ => ⟨S8x65536x256, .f32⟩
  | .hbm, ⟨15, _⟩ => ⟨S8x65536x256, .f32⟩
  | .hbm, ⟨16, _⟩ => ⟨S1x1x256, .f32⟩
  | .hbm, ⟨17, _⟩ => ⟨S8x65536x256, .f32⟩
  | .hbm, ⟨18, _⟩ => ⟨S8x65536x256, .f32⟩
  | .hbm, ⟨19, _⟩ => ⟨S8x65536x256, .f32⟩
  | .hbm, ⟨20, _⟩ => ⟨S_, .f32⟩
  | .hbm, ⟨21, _⟩ => ⟨S8x65536x256, .f32⟩
  | .hbm, ⟨22, _⟩ => ⟨S8x65536x256, .f32⟩
  | .hbm, ⟨23, _⟩ => ⟨S_, .f32⟩
  | .hbm, ⟨24, _⟩ => ⟨S8x65536, .f32⟩
  | .hbm, ⟨25, _⟩ => ⟨S_, .f32⟩
  | .hbm, ⟨26, _⟩ => ⟨S8x65536, .f32⟩
  | .hbm, ⟨27, _⟩ => ⟨S8x65536, .f32⟩
  | .hbm, ⟨28, _⟩ => ⟨S8x65536x1, .f32⟩
  | .hbm, ⟨29, _⟩ => ⟨S8x65536x256, .f32⟩
  | .hbm, ⟨30, _⟩ => ⟨S8x65536x256, .f32⟩
  | .hbm, ⟨31, _⟩ => ⟨S8x65536x256, .f32⟩
  | .hbm, ⟨32, _⟩ => ⟨S_, .f32⟩
  | .hbm, ⟨33, _⟩ => ⟨S8x65536, .f32⟩
  | .hbm, ⟨34, _⟩ => ⟨S8x65536x1, .f32⟩
  | .hbm, ⟨35, _⟩ => ⟨S8x65536x256, .f32⟩
  | .hbm, ⟨36, _⟩ => ⟨S8x65536x256, .f32⟩
  | .hbm, ⟨37, _⟩ => ⟨S8x65536x4, .f32⟩
  | .hbm, ⟨38, _⟩ => ⟨S8x262144, .f32⟩
  | _, _ => ⟨S8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  shapeCasts_S8x262144_S8x65536x4 : S8x262144.ShapeCasts S8x65536x4
  reducesTo_S8x65536x4_S8x65536_d2 : S8x65536x4.ReducesTo [2] S8x65536
  h_S_ : 0 < S_.numel
  bcast_S8x65536_S8x65536x1_0_1 : S8x65536.BroadcastsInDim S8x65536x1 (![0, 1] : Fin 2 → Fin S8x65536x1.rank)
  reducesTo_S256x4_S256_d1 : S256x4.ReducesTo [1] S256
  bcast_S_S8x65536x256 : S_.BroadcastsInDim S8x65536x256 (![] : Fin 0 → Fin S8x65536x256.rank)
  bcast_S8x65536x1_S8x65536x256_0_1_2 : S8x65536x1.BroadcastsInDim S8x65536x256 (![0, 1, 2] : Fin 3 → Fin S8x65536x256.rank)
  bcast_S256_S1x1x256_2 : S256.BroadcastsInDim S1x1x256 (![2] : Fin 1 → Fin S1x1x256.rank)
  bcast_S1x1x256_S8x65536x256_0_1_2 : S1x1x256.BroadcastsInDim S8x65536x256 (![0, 1, 2] : Fin 3 → Fin S8x65536x256.rank)
  reducesTo_S8x65536x256_S8x65536_d2 : S8x65536x256.ReducesTo [2] S8x65536
  bcast_S_S8x65536 : S_.BroadcastsInDim S8x65536 (![] : Fin 0 → Fin S8x65536.rank)
  shapeCasts_S8x65536x4_S8x262144 : S8x65536x4.ShapeCasts S8x262144
  dot_S8x65536x4_S256x4_S8x65536x256_2_1_01_0_n_n_wf : DotDims.WF S8x65536x4 S256x4 S8x65536x256 [2] [1] [0, 1] [0] [] []
  dot_S8x65536x256_S256x4_S8x65536x4_2_0_01_1_n_n_wf : DotDims.WF S8x65536x256 S256x4 S8x65536x4 [2] [0] [0, 1] [1] [] []

variable [Facts₀]

def dot_S8x65536x4_S256x4_S8x65536x256_2_1_01_0_n_n : DotDims S8x65536x4 S256x4 S8x65536x256 where
  lhsContracting := [2]
  rhsContracting := [1]
  lhsNonContracting := [0, 1]
  rhsNonContracting := [0]
  lhsBatch := []
  rhsBatch := []
  wf := dot_S8x65536x4_S256x4_S8x65536x256_2_1_01_0_n_n_wf
def dot_S8x65536x256_S256x4_S8x65536x4_2_0_01_1_n_n : DotDims S8x65536x256 S256x4 S8x65536x4 where
  lhsContracting := [2]
  rhsContracting := [0]
  lhsNonContracting := [0, 1]
  rhsNonContracting := [1]
  lhsBatch := []
  rhsBatch := []
  wf := dot_S8x65536x256_S256x4_S8x65536x4_2_0_01_1_n_n_wf

class Facts : Prop extends Facts₀ where

variable [Facts]
-- ==== Proof.SoftAssign.lean ====
/-
  Soft assignment of a length-4 vector to a codebook of 256 centres, on the extended reals.

  For a vector x and centres C k the score of centre k is minus the squared distance, expanded as
  -((|x|² - 2·⟨x, C k⟩) + |C k|²) and scaled by the temperature 1; the shares are the softmax of the scores, taken
  the stable way (the largest score is subtracted before the exponential, and that largest score is itself capped
  below by -∞); the result is the shares' combination of the centres. Every operation is the exact one, so the
  grouping of a sum or the tiling of the rows plays no part: both programs compute this one function of a row.
-/
import Idealize.ShloMosaic.PureOps.Ideal
import Idealize.ShloMosaic.Lib.ValueIdx

noncomputable section

namespace Cert.SoftAssign

open Idealize.ShloMosaic Idealize.ShloMosaic.ValueIdx

/-- The words the two programs spell: 1 (the temperature), 2 and -∞. They are never evaluated: each side carries the
    same word in the same place. -/
abbrev one : EReal := Ideal.ofBits .f32 0x3F800000#32
abbrev two : EReal := Ideal.ofBits .f32 0x40000000#32
abbrev ninf : EReal := Ideal.ofBits .f32 0xFF800000#32

/-- The sum of the squares of a vector's entries. -/
def sqNorm (v : Fin 4 → EReal) : EReal := ∑ d, v d * v d

/-- The score of centre `k`: the temperature times minus the expanded squared distance. -/
def score (x : Fin 4 → EReal) (C : Fin 256 → Fin 4 → EReal) (k : Fin 256) : EReal :=
  one * -((sqNorm x - two * ∑ d, x d * C k d) + sqNorm (C k))

/-- The largest score, as the softmax takes it: the running maximum from -∞, capped below by -∞ once more. -/
def top (s : Fin 256 → EReal) : EReal := max ninf ((Finset.univ : Finset (Fin 256)).fold max ninf s)

/-- The unnormalised weight of centre `k`. -/
def weight (s : Fin 256 → EReal) (k : Fin 256) : EReal := Ideal.exp (s k - top s)

/-- The share of centre `k`: its weight over the sum of all weights. -/
def share (s : Fin 256 → EReal) (k : Fin 256) : EReal := Ideal.div (weight s k) (∑ k', weight s k')

/-- The soft assignment of `x`: the shares' combination of the centres, coordinate `d`. -/
def blend (x : Fin 4 → EReal) (C : Fin 256 → Fin 4 → EReal) (d : Fin 4) : EReal :=
  ∑ k, share (score x C) k * C k d

/-- The centres as rows of a [256, 4] array. -/
abbrev rows (C : (⟨2, ![256, 4]⟩ : Shape).Idx → EReal) : Fin 256 → Fin 4 → EReal := fun k d => C (ix2 k d)

/-- The whole result on [8, 65536, 4]: every length-4 row of `X` is replaced by its soft assignment. -/
def result (X : (⟨3, ![8, 65536, 4]⟩ : Shape).Idx → EReal) (C : (⟨2, ![256, 4]⟩ : Shape).Idx → EReal) :
    (⟨3, ![8, 65536, 4]⟩ : Shape).Idx → EReal :=
  fun i => blend (fun d => X (ix3 (i 0) (i 1) d)) (rows C) (i 2)

end Cert.SoftAssign

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.Tile.lean ====
/-
  What the kernel's body computes on one tile, read entry by entry.

  A tile is 4096 rows of length 4 together with the whole codebook of 256 centres. The body's steps, each read at
  coordinates: the squared norm of a row and of a centre are sums over the four entries; the cross term is the
  matrix product contracted over those four entries; the scores, the row maximum, the exponentials, their row sum and
  the quotient are taken row by row; and the last matrix product contracts over the 256 centres. Row `r` of the tile's
  result is therefore the soft assignment of row `r` of the tile: no other row enters it.
-/
import proofs.«166150_j89833535963913_1_alg».proof.Proof.Gen.KernelIdeal.Skeleton
import proofs.«166150_j89833535963913_1_alg».proof.Proof.SoftAssign
import proofs.«166150_j89833535963913_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Facts₀ Cert.SoftAssign
open Cert.KernelIdeal.Gen (k0_pay1)

/-! ## The steps of the body, named -/

/-- The squared norms of the tile's rows, kept as a column. -/
def rowSq (v : FVec Ideal S4096x4 .f32) : FVec Ideal S4096x1 .f32 :=
  shapeCast S4096x1 (multiReduction .add [1] S4096 (mulf v v) 0x00000000#32 reduces_S4096x4_S4096 (.inl rfl) rfl) shapeCasts_S4096_S4096x1

/-- The squared norms of the centres. -/
def codeSq (c : FVec Ideal S256x4 .f32) : FVec Ideal S256 .f32 :=
  multiReduction .add [1] S256 (mulf c c) 0x00000000#32 reduces_S256x4_S256 (.inl rfl) rfl

/-- The products of every row with every centre. -/
def cross (v : FVec Ideal S4096x4 .f32) (c : FVec Ideal S256x4 .f32) : FVec Ideal S4096x256 .f32 :=
  matmul dot_S4096x4_S256x4_S4096x256_1_1_0_0_n_n none (truncf .bf16 v bitsLt_bf16_f32) (truncf .bf16 c bitsLt_bf16_f32)
    (constant S4096x256 .f32 0x00000000#32)

/-- The scores of every centre for every row. -/
def scores (v : FVec Ideal S4096x4 .f32) (c : FVec Ideal S256x4 .f32) : FVec Ideal S4096x256 .f32 :=
  mulf (broadcast S4096x256 (Scalar.ofBits .f32 0x3F800000#32))
    (subf (broadcast S4096x256 (Scalar.ofBits .f32 0x00000000#32))
      (addf (subf (broadcastTo S4096x256 (rowSq v) broadcasts_S4096x1_S4096x256)
          (mulf (broadcast S4096x256 (Scalar.ofBits .f32 0x40000000#32)) (cross v c)))
        (broadcastTo S4096x256 (shapeCast S1x256 (codeSq c) shapeCasts_S256_S1x256) broadcasts_S1x256_S4096x256)))

/-- The largest score of every row, kept as a column. -/
def tops (s : FVec Ideal S4096x256 .f32) : FVec Ideal S4096x1 .f32 :=
  shapeCast S4096x1 (maximumf (broadcast S4096 (Scalar.ofBits .f32 0xFF800000#32))
    (multiReduction .maximumf [1] S4096 s 0xFF800000#32 reduces_S4096x256_S4096 (.inl rfl) rfl)) shapeCasts_S4096_S4096x1

/-- The unnormalised weights. -/
def weights (s : FVec Ideal S4096x256 .f32) : FVec Ideal S4096x256 .f32 :=
  exp (subf s (broadcastTo S4096x256 (tops s) broadcasts_S4096x1_S4096x256))

/-- The shares: every weight over its row's sum of weights. -/
def shares (s : FVec Ideal S4096x256 .f32) : FVec Ideal S4096x256 .bf16 :=
  truncf .bf16 (divf (weights s) (broadcastTo S4096x256
    (shapeCast S4096x1 (multiReduction .add [1] S4096 (weights s) 0x00000000#32 reduces_S4096x256_S4096 (.inl rfl) rfl) shapeCasts_S4096_S4096x1)
    broadcasts_S4096x1_S4096x256)) bitsLt_bf16_f32

/-- The shares' combinations of the centres. -/
def mix (p : FVec Ideal S4096x256 .bf16) (c : FVec Ideal S256x4 .f32) : FVec Ideal S4096x4 .f32 :=
  matmul dot_S4096x256_S256x4_S4096x4_1_0_0_1_n_n none p (truncf .bf16 c bitsLt_bf16_f32) (constant S4096x4 .f32 0x00000000#32)

/-- The body's one stored value is these steps composed, between the two casts that drop and restore the tile's
    leading unit axis. -/
theorem pay_eq (x0 : Vec Ideal S1x4096x4 .f32) (x1 : Vec Ideal S256x4 .f32) :
    k0_pay1 (F := Ideal) x0 x1
      = shapeCast S1x4096x4 (mix (shares (scores (shapeCast S4096x4 x0 shapeCasts_S1x4096x4_S4096x4) x1)) x1) shapeCasts_S4096x4_S1x4096x4 := rfl

/-! ## The two products' operand indices, coordinate by coordinate -/

theorem cross_lhs0 (i : S4096x256.Idx) (q : dot_S4096x4_S256x4_S4096x256_1_1_0_0_n_n.contr.Idx) : (dot_S4096x4_S256x4_S4096x256_1_1_0_0_n_n.lhsIdx i q 0).val = (i 0).val := by
  unfold DotDims.lhsIdx
  rw [dif_neg (show ¬(0 : Fin S4096x4.rank) ∈ dot_S4096x4_S256x4_S4096x256_1_1_0_0_n_n.lhsBatch by decide),
    dif_pos (show (0 : Fin S4096x4.rank) ∈ dot_S4096x4_S256x4_S4096x256_1_1_0_0_n_n.lhsNonContracting by decide)]
  rfl
theorem cross_lhs1 (i : S4096x256.Idx) (q : dot_S4096x4_S256x4_S4096x256_1_1_0_0_n_n.contr.Idx) : (dot_S4096x4_S256x4_S4096x256_1_1_0_0_n_n.lhsIdx i q 1).val = (q ⟨0, by decide⟩).val :=
  dot_S4096x4_S256x4_S4096x256_1_1_0_0_n_n.lhsIdx_val_of_single rfl i q
theorem cross_rhs0 (i : S4096x256.Idx) (q : dot_S4096x4_S256x4_S4096x256_1_1_0_0_n_n.contr.Idx) : (dot_S4096x4_S256x4_S4096x256_1_1_0_0_n_n.rhsIdx i q 0).val = (i 1).val := by
  unfold DotDims.rhsIdx
  rw [dif_neg (show ¬(0 : Fin S256x4.rank) ∈ dot_S4096x4_S256x4_S4096x256_1_1_0_0_n_n.rhsBatch by decide),
    dif_pos (show (0 : Fin S256x4.rank) ∈ dot_S4096x4_S256x4_S4096x256_1_1_0_0_n_n.rhsNonContracting by decide)]
  rfl
theorem cross_rhs1 (i : S4096x256.Idx) (q : dot_S4096x4_S256x4_S4096x256_1_1_0_0_n_n.contr.Idx) : (dot_S4096x4_S256x4_S4096x256_1_1_0_0_n_n.rhsIdx i q 1).val = (q ⟨0, by decide⟩).val :=
  dot_S4096x4_S256x4_S4096x256_1_1_0_0_n_n.rhsIdx_val_of_single rfl i q

theorem mix_lhs0 (i : S4096x4.Idx) (q : dot_S4096x256_S256x4_S4096x4_1_0_0_1_n_n.contr.Idx) : (dot_S4096x256_S256x4_S4096x4_1_0_0_1_n_n.lhsIdx i q 0).val = (i 0).val := by
  unfold DotDims.lhsIdx
  rw [dif_neg (show ¬(0 : Fin S4096x256.rank) ∈ dot_S4096x256_S256x4_S4096x4_1_0_0_1_n_n.lhsBatch by decide),
    dif_pos (show (0 : Fin S4096x256.rank) ∈ dot_S4096x256_S256x4_S4096x4_1_0_0_1_n_n.lhsNonContracting by decide)]
  rfl
theorem mix_lhs1 (i : S4096x4.Idx) (q : dot_S4096x256_S256x4_S4096x4_1_0_0_1_n_n.contr.Idx) : (dot_S4096x256_S256x4_S4096x4_1_0_0_1_n_n.lhsIdx i q 1).val = (q ⟨0, by decide⟩).val :=
  dot_S4096x256_S256x4_S4096x4_1_0_0_1_n_n.lhsIdx_val_of_single rfl i q
theorem mix_rhs0 (i : S4096x4.Idx) (q : dot_S4096x256_S256x4_S4096x4_1_0_0_1_n_n.contr.Idx) : (dot_S4096x256_S256x4_S4096x4_1_0_0_1_n_n.rhsIdx i q 0).val = (q ⟨0, by decide⟩).val :=
  dot_S4096x256_S256x4_S4096x4_1_0_0_1_n_n.rhsIdx_val_of_single rfl i q
theorem mix_rhs1 (i : S4096x4.Idx) (q : dot_S4096x256_S256x4_S4096x4_1_0_0_1_n_n.contr.Idx) : (dot_S4096x256_S256x4_S4096x4_1_0_0_1_n_n.rhsIdx i q 1).val = (i 1).val := by
  unfold DotDims.rhsIdx
  rw [dif_neg (show ¬(1 : Fin S256x4.rank) ∈ dot_S4096x256_S256x4_S4096x4_1_0_0_1_n_n.rhsBatch by decide),
    dif_pos (show (1 : Fin S256x4.rank) ∈ dot_S4096x256_S256x4_S4096x4_1_0_0_1_n_n.rhsNonContracting by decide)]
  rfl

/-! ## Each step at coordinates -/

theorem rowSq_apply (v : FVec Ideal S4096x4 .f32) (r : Fin 4096) (u : Fin 1) :
    rowSq v (ix2 r u) = sqNorm (fun d => v (ix2 r d)) := by
  unfold rowSq
  refine (shapeCast_a_a1_apply _ shapeCasts_S4096_S4096x1 r u).trans ?_
  exact rowSum_apply (mulf v v) 0x00000000#32 reduces_S4096x4_S4096 (.inl rfl) rfl r

theorem codeSq_apply (c : FVec Ideal S256x4 .f32) (k : Fin 256) :
    codeSq c (ix1 k) = sqNorm (rows c k) := by
  unfold codeSq
  exact rowSum_apply (mulf c c) 0x00000000#32 reduces_S256x4_S256 (.inl rfl) rfl k

/-- The first product contracts the two operands' LAST axes: entry `(r, k)` is the sum over the four coordinates of
    row `r` times centre `k`. -/
theorem cross_apply (v : FVec Ideal S4096x4 .f32) (c : FVec Ideal S256x4 .f32) (r : Fin 4096) (k : Fin 256) :
    cross v c (ix2 r k) = ∑ d : Fin 4, v (ix2 r d) * c (ix2 k d) := by
  unfold cross
  simp only [matmul]
  rw [Ideal.matmul_constant_zero_apply,
    ← Equiv.sum_comp (contrEquiv1 dot_S4096x4_S256x4_S4096x256_1_1_0_0_n_n 4 rfl rfl).symm]
  refine Finset.sum_congr rfl fun d _ => ?_
  have hd := contrEquiv1_symm_val dot_S4096x4_S256x4_S4096x256_1_1_0_0_n_n 4 rfl rfl d
  have el : dot_S4096x4_S256x4_S4096x256_1_1_0_0_n_n.lhsIdx (ix2 r k)
      ((contrEquiv1 dot_S4096x4_S256x4_S4096x256_1_1_0_0_n_n 4 rfl rfl).symm d) = ix2 r d := funext fun a => Fin.ext (by
    match a with
    | ⟨0, _⟩ => exact cross_lhs0 _ _
    | ⟨1, _⟩ => exact (cross_lhs1 _ _).trans hd)
  have er : dot_S4096x4_S256x4_S4096x256_1_1_0_0_n_n.rhsIdx (ix2 r k)
      ((contrEquiv1 dot_S4096x4_S256x4_S4096x256_1_1_0_0_n_n 4 rfl rfl).symm d) = ix2 k d := funext fun a => Fin.ext (by
    match a with
    | ⟨0, _⟩ => exact cross_rhs0 _ _
    | ⟨1, _⟩ => exact (cross_rhs1 _ _).trans hd)
  rw [el, er]
  rfl

/-- The body writes minus the distance as `0 - y`; on the extended reals that is `-y`. -/
theorem scores_apply (v : FVec Ideal S4096x4 .f32) (c : FVec Ideal S256x4 .f32) (r : Fin 4096) (k : Fin 256) :
    scores v c (ix2 r k) = score (fun d => v (ix2 r d)) (rows c) k := by
  unfold scores
  rw [mulf_apply, subf_apply, addf_apply, subf_apply, mulf_apply, broadcast_apply, broadcast_apply, broadcast_apply,
    broadcastTo_a1_ab_apply, broadcastTo_1b_ab_apply, shapeCast_a_1a_apply, rowSq_apply, cross_apply, codeSq_apply]
  unfold score
  show Ideal.ofBits .f32 0x3F800000#32 * (Ideal.ofBits .f32 0x00000000#32 - _) = _
  rw [Ideal.ofBits_zero_f32, zero_sub]
  rfl

theorem tops_apply (s : FVec Ideal S4096x256 .f32) (r : Fin 4096) (u : Fin 1) :
    tops s (ix2 r u) = top (fun k => s (ix2 r k)) := by
  unfold tops
  rw [shapeCast_a_a1_apply, maximumf_apply, broadcast_apply]
  unfold top
  refine congrArg (max _) ?_
  exact rowMax_apply s 0xFF800000#32 reduces_S4096x256_S4096 (.inl rfl) rfl r

theorem weights_apply (s : FVec Ideal S4096x256 .f32) (r : Fin 4096) (k : Fin 256) :
    weights s (ix2 r k) = weight (fun k => s (ix2 r k)) k := by
  unfold weights
  show Ideal.exp (subf s (broadcastTo S4096x256 (tops s) broadcasts_S4096x1_S4096x256) (ix2 r k)) = _
  rw [subf_apply, broadcastTo_a1_ab_apply, tops_apply]
  rfl

theorem shares_apply (s : FVec Ideal S4096x256 .f32) (r : Fin 4096) (k : Fin 256) :
    shares s (ix2 r k) = share (fun k => s (ix2 r k)) k := by
  unfold shares
  rw [truncf_apply, divf_apply, broadcastTo_a1_ab_apply, shapeCast_a_a1_apply]
  refine (congrArg (Ideal.div _) (rowSum_apply (weights s) 0x00000000#32 reduces_S4096x256_S4096 (.inl rfl) rfl r)).trans ?_
  rw [weights_apply]
  unfold share
  exact congrArg (Ideal.div _) (Finset.sum_congr rfl fun k' _ => weights_apply s r k')

/-- The second product contracts the shares' last axis with the centres' FIRST: entry `(r, d)` is the sum over the 256
    centres of the share times the centre's coordinate `d`. -/
theorem mix_apply (p : FVec Ideal S4096x256 .bf16) (c : FVec Ideal S256x4 .f32) (r : Fin 4096) (d : Fin 4) :
    mix p c (ix2 r d) = ∑ k : Fin 256, p (ix2 r k) * c (ix2 k d) := by
  unfold mix
  simp only [matmul]
  rw [Ideal.matmul_constant_zero_apply,
    ← Equiv.sum_comp (contrEquiv1 dot_S4096x256_S256x4_S4096x4_1_0_0_1_n_n 256 rfl rfl).symm]
  refine Finset.sum_congr rfl fun k _ => ?_
  have hk := contrEquiv1_symm_val dot_S4096x256_S256x4_S4096x4_1_0_0_1_n_n 256 rfl rfl k
  have el : dot_S4096x256_S256x4_S4096x4_1_0_0_1_n_n.lhsIdx (ix2 r d)
      ((contrEquiv1 dot_S4096x256_S256x4_S4096x4_1_0_0_1_n_n 256 rfl rfl).symm k) = ix2 r k := funext fun a => Fin.ext (by
    match a with
    | ⟨0, _⟩ => exact mix_lhs0 _ _
    | ⟨1, _⟩ => exact (mix_lhs1 _ _).trans hk)
  have er : dot_S4096x256_S256x4_S4096x4_1_0_0_1_n_n.rhsIdx (ix2 r d)
      ((contrEquiv1 dot_S4096x256_S256x4_S4096x4_1_0_0_1_n_n 256 rfl rfl).symm k) = ix2 k d := funext fun a => Fin.ext (by
    match a with
    | ⟨0, _⟩ => exact (mix_rhs0 _ _).trans hk
    | ⟨1, _⟩ => exact mix_rhs1 _ _)
  rw [el, er]
  rfl

/-! ## The tile's result -/

/-- Row `r` of what the body stores is the soft assignment of row `r` of the tile it loaded. -/
theorem pay_apply (x0 : Vec Ideal S1x4096x4 .f32) (x1 : Vec Ideal S256x4 .f32) (u : Fin 1) (r : Fin 4096) (d : Fin 4) :
    k0_pay1 (F := Ideal) x0 x1 (ix3 u r d) = blend (fun d' => x0 (ix3 (0 : Fin 1) r d')) (rows x1) d := by
  rw [pay_eq, shapeCast_ab_1ab_apply, mix_apply]
  unfold blend
  refine Finset.sum_congr rfl fun k _ => ?_
  rw [shares_apply]
  have hs : (fun k' => scores (shapeCast S4096x4 x0 shapeCasts_S1x4096x4_S4096x4) x1 (ix2 r k'))
      = score (fun d' => x0 (ix3 (0 : Fin 1) r d')) (rows x1) := funext fun k' => by
    rw [scores_apply]
    exact congrArg (fun f => score f (rows x1) k') (funext fun d' => shapeCast_1ab_ab_apply x0 shapeCasts_S1x4096x4_S4096x4 r d')
  rw [hs]

/-- The same at any index of the stored tile. -/
theorem pay_at (x0 : Vec Ideal S1x4096x4 .f32) (x1 : Vec Ideal S256x4 .f32) (j : S1x4096x4.Idx) :
    k0_pay1 (F := Ideal) x0 x1 j = blend (fun d' => x0 (ix3 (0 : Fin 1) (j 1) d')) (rows x1) (j 2) := by
  obtain ⟨u, r, d, rfl⟩ : ∃ (u : Fin 1) (r : Fin 4096) (d : Fin 4), j = ix3 u r d := ⟨j 0, j 1, j 2, eq_ix3 j⟩
  exact pay_apply x0 x1 u r d

end Cert.KernelIdeal.Tile

end
-- ==== Proof.Whole.lean ====
/-
  From tiles to the whole array, and through the two reshapes around the kernel.

  The grid has 8 × 16 points; point (b, j) works on rows 4096·j … 4096·j + 4095 of batch b, reading that tile of the
  reshaped input and the whole codebook, and writing the same tile of the result. Since row r of a tile's result is the
  soft assignment of row r of the tile, each written tile is the restriction of ONE function of the whole arrays, and
  the tiles cover every row; so after the last point the result array holds the soft assignment of every row. The
  reshape before the kernel makes the [8, 65536, 4] rows out of the flat input, the reshape after it flattens them back.
-/
import proofs.«166150_j89833535963913_1_alg».proof.Proof.Gen.KernelIdeal.Frame
import proofs.«166150_j89833535963913_1_alg».proof.Proof.Tile
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.SoftAssign

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The soft assignment of every row of the reshaped input as the kernel finds it. -/
abbrev quantized (c : Dev nD) : S8x65536x4.Idx → EReal := result (V m c main_v0) (V m c main_arg1)

/-- The three index maps over the grid: the input tile and the output tile are the same tile, its last block index
    0; the codebook is always block (0, 0). -/
theorem tile_index : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

/-- Every (batch, row-tile) pair is some point's output tile. -/
theorem tile_onto : ∀ (q0 : Fin 8) (q1 : Fin 16), ∃ t : Fin cfg0.N, win0_2.index t = ![q0.val, q1.val, 0] :=
  (by decide +kernel : ∀ (q0 : Fin 8) (q1 : Fin 16), ∃ t : Fin grid0.N, win0_2.index t = ![q0.val, q1.val, 0])

/-- What point `t` writes back is tile `t` of the soft assignment of the whole input. -/
theorem flushed_eq (c : Dev nD) (t : Fin cfg0.N) :
    (dats m 0 c).flushed 2 t = ((cfg0.win 2).blk t).view.read (Elt Ideal) (quantized m c) := by
  show (cfg0.win 2).cut (grid0.coords t) ((dats m 0 c).after 2 t) = _
  rw [after0_2]
  unfold out0_2
  rw [View.canon_unit_zero zero3]
  simp only [View.ld_unit_zero (S := S1x4096x4) zero3, View.ld_unit_zero (S := S256x4) zero2]
  obtain ⟨e00, e01, e02, e22, e10, e11⟩ := tile_index t
  funext j
  refine (Tile.pay_at (iblk m c 0 t) (iblk m c 1 t) j).trans ?_
  show _ = blend (fun d => V m c main_v0 (ix3 ((((cfg0.win 2).blk t).view.emb j) 0) ((((cfg0.win 2).blk t).view.emb j) 1) d))
      (rows (V m c main_arg1)) ((((cfg0.win 2).blk t).view.emb j) 2)
  have hj0 : (j 0).val = 0 := by have h1 : (j 0).val < 1 := (j 0).isLt; omega
  have hx : (fun d' => iblk m c 0 t (ix3 (0 : Fin 1) (j 1) d'))
      = fun d => V m c main_v0 (ix3 ((((cfg0.win 2).blk t).view.emb j) 0) ((((cfg0.win 2).blk t).view.emb j) 1) d) :=
    funext fun d => by
      show V m c main_v0 (((cfg0.win 0).blk t).view.emb (ix3 (0 : Fin 1) (j 1) d)) = _
      refine congrArg (V m c main_v0) (funext fun a => Fin.ext ?_)
      match a with
      | ⟨0, _⟩ => show win0_0.index t (0 : Fin 3) * 1 + 1 * 0 = win0_2.index t (0 : Fin 3) * 1 + 1 * (j 0).val; omega
      | ⟨1, _⟩ => show win0_0.index t (1 : Fin 3) * 4096 + 1 * (j 1).val = win0_2.index t (1 : Fin 3) * 4096 + 1 * (j 1).val; omega
      | ⟨2, _⟩ => show win0_0.index t (2 : Fin 3) * 4 + 1 * d.val = d.val; omega
  have hc : rows (iblk m c 1 t) = rows (V m c main_arg1) := funext fun k => funext fun d => by
    show V m c main_arg1 (((cfg0.win 1).blk t).view.emb (ix2 k d)) = _
    refine congrArg (V m c main_arg1) (funext fun a => Fin.ext ?_)
    match a with
    | ⟨0, _⟩ => show win0_1.index t (0 : Fin 2) * 256 + 1 * k.val = k.val; omega
    | ⟨1, _⟩ => show win0_1.index t (1 : Fin 2) * 4 + 1 * d.val = d.val; omega
  have hd : j 2 = (((cfg0.win 2).blk t).view.emb j) 2 := Fin.ext (by
    show (j 2).val = win0_2.index t (2 : Fin 3) * 4 + 1 * (j 2).val; omega)
  rw [hx, hc]
  exact congrArg _ hd

/-- An index of the result array is in point `t`'s tile iff each coordinate is in the tile's range on its axis. -/
theorem mem_tile (t : Fin cfg0.N) (i : S8x65536x4.Idx) :
    i ∈ ((cfg0.win 2).blk t).view.set ↔ ∀ a : Fin 3, win0_2.index t a * S1x4096x4.size a ≤ (i a).val
      ∧ (i a).val < win0_2.index t a * S1x4096x4.size a + S1x4096x4.size a := by
  show i ∈ ((View.whole main_v1).slice (win0_2.rect t)).set ↔ _
  rw [View.set_slice_whole, Rect.mem_set_unit]
  exact Iff.rfl

/-- Row `(b, r)` lies in the tile of the point whose block indices are `(b, r / 4096, 0)`. -/
theorem covered (i : S8x65536x4.Idx) :
    ∃ t : Fin cfg0.N, (cfg0.win 2).flush t = true ∧ i ∈ ((cfg0.win 2).blk t).view.set := by
  have h0 : (i 0).val < 8 := (i 0).isLt
  have h1 : (i 1).val < 65536 := (i 1).isLt
  have h2 : (i 2).val < 4 := (i 2).isLt
  obtain ⟨t, ht⟩ := tile_onto ⟨(i 0).val, h0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 4 ≤ (i 2).val ∧ (i 2).val < win0_2.index t (2 : Fin 3) * 4 + 4; omega

/-- The result array after the last point: the soft assignment of every row. -/
theorem final (c : Dev nD) : (dats m 0 c).arrAt 2 cfg0.N = quantized m c :=
  (dats m 0 c).arrAt_eq_of_cover 2 (quantized m c) (fun t _ => flushed_eq m c t) covered

/-- The kernel's input rows are the flat argument reshaped. -/
theorem rows_in (c : Dev nD) : (V m c main_v0 : S8x65536x4.Idx → EReal)
    = shapeCast S8x65536x4 (m ((c : Thread nD τ).loc main_arg0)) Facts₀.shapeCasts_S8x262144_S8x65536x4 := by
  show StableHlo.after hostOps0 (fun b => m (c, b)) (Proc.devRef .tc main_v0) = _
  after_results
  rfl

/-- The program's result: the reshape after the kernel flattens the result array. -/
theorem flat_out (c : Dev nD) :
    Pipeline.afterTail₀ cfgs (dats m) 0 (V0 m) [hostOps1] c main_v2
      = shapeCast S8x262144 (quantized m c) Facts₀.shapeCasts_S8x65536x4_S8x262144 := by
  unfold Pipeline.afterTail₀
  show StableHlo.after hostOps1 _ (Proc.devRef .tc main_v2) = _
  after_results
  exact congrArg (fun A => shapeCast S8x262144 A Facts₀.shapeCasts_S8x65536x4_S8x262144)
    ((Pipeline.withArrays_arr spec0 launch0.win.arr_inj c (V0 m c) (fun w => (dats m 0 c).arrAt w cfg0.N) 2).trans (final m c))

/-- The program's result as one function of the two arguments: reshape, soft-assign every row, flatten. -/
abbrev answer (a0 : S8x262144.Idx → EReal) (a1 : S256x4.Idx → EReal) : S8x262144.Idx → EReal :=
  shapeCast S8x262144 (result (shapeCast S8x65536x4 a0 Facts₀.shapeCasts_S8x262144_S8x65536x4) a1)
    Facts₀.shapeCasts_S8x65536x4_S8x262144

/-- The run, read: every weakly fair execution ends with the result at `answer` of the arguments, the arguments
    unchanged. -/
theorem run : θ_run defs (onTc (τ := τ) (main (F := Ideal))) ⟨m, fun _ => 0, ρ⟩ fun r => ∀ c : Dev nD,
      r.2.mem ((c : Thread nD τ).loc main_v2)
        = answer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans
        ((flat_out m c).trans (by unfold quantized answer; rw [rows_in m c, V_main_arg1 m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefRows.lean ====
/-
  What the reference computes, read entry by entry.

  The reference works on the whole [8, 65536, 4] array at once, and every one of its steps keeps the first two
  coordinates: the entry at `(b, m, ·)` of each intermediate array depends only on row `(b, m)` of the input and on
  the codebook. Read at coordinates, its steps are the steps of the soft assignment of that row: the squared norms
  and the cross term are sums over the four entries, the maximum over the 256 scores is the running maximum from -∞,
  and the last product sums over the 256 centres.
-/
import proofs.«166150_j89833535963913_1_alg».proof.Proof.Gen.ReferenceIdeal.Read
import proofs.«166150_j89833535963913_1_alg».proof.Proof.SoftAssign
import Idealize.ShloMosaic.PureOps.Ideal.Laws
import Idealize.ShloMosaic.PureOps.Reduce
import Idealize.ShloMosaic.Lib.ValueIdx

noncomputable section

namespace Cert.ReferenceIdeal.Rows

open Idealize.ShloMosaic Idealize.ShloMosaic.ValueIdx Cert.ReferenceIdeal Cert.ReferenceIdeal.Facts₀ Cert.ReferenceIdeal.Read Cert.SoftAssign

variable (x0 : (⟨S8x262144, .f32⟩ : BufTy).Contents (Elt Ideal)) (x1 : (⟨S256x4, .f32⟩ : BufTy).Contents (Elt Ideal))

/-- Row `(b, m)` of the reference's reshaped input. -/
abbrev row (b : Fin 8) (m : Fin 65536) : Fin 4 → EReal := fun d => val_main_v0 (F := Ideal) x0 (ix3 b m d)

/-- The reference's scaled, negated expanded squared distance at `(b, m, k)` is the score of centre `k` for row `(b, m)`. -/
theorem score_apply (b : Fin 8) (m : Fin 65536) (k : Fin 256) :
    val_main_v16 (F := Ideal) x0 x1 (ix3 b m k) = score (row x0 b m) (rows x1) k := by
  have e1 : ∀ d : Fin 4, idx_main_v2 (idx_main_v3 (idx_main_v9 (ix3 b m k))) d = ix3 b m d := fun d => funext fun a => by
    match a with | ⟨0, _⟩ => rfl | ⟨1, _⟩ => rfl | ⟨2, _⟩ => rfl
  have e2 : ∀ d : Fin 4, lidx_main_v6 (ix3 b m k) d = ix3 b m d := fun d => funext fun a => by
    match a with | ⟨0, _⟩ => rfl | ⟨1, _⟩ => rfl | ⟨2, _⟩ => rfl
  have e3 : ∀ d : Fin 4, ridx_main_v6 (ix3 b m k) d = ix2 k d := fun d => funext fun a => by
    match a with | ⟨0, _⟩ => rfl | ⟨1, _⟩ => rfl
  have e4 : ∀ d : Fin 4, idx_main_v5 (idx_main_v11 (idx_main_v12 (ix3 b m k))) d = ix2 k d := fun d => funext fun a => by
    match a with | ⟨0, _⟩ => rfl | ⟨1, _⟩ => rfl
  rw [val_main_v16_apply, val_main_v15_apply, val_main_cst_2_apply, val_main_v14_apply, val_main_v13_apply,
    val_main_v10_apply, val_main_v9_apply, val_main_v3_apply, val_main_v2_apply, val_main_cst_apply, val_main_v8_apply,
    val_main_v7_apply, val_main_cst_1_apply, val_main_v6_apply, val_main_v12_apply, val_main_v11_apply,
    val_main_v5_apply, val_main_cst_0_apply]
  simp only [e1, e2, e3, e4, val_main_v1_apply, val_main_v4_apply]
  unfold score sqNorm
  simp only [Ideal.mulf_def, Ideal.subf_def, Ideal.addf_def, Ideal.hostNegf_def, Ideal.negf_def, Ideal.ofBits_def,
    Ideal.ofBits_zero_f32, zero_add]

/-- The reduced index `(b, m)` with the centre `k` put back on the reduced axis. -/
theorem lift_centre (h : S8x65536x256.Reduces [2] S8x65536) (b : Fin 8) (m : Fin 65536) (k : Fin 256) :
    h.lift (ix2 b m) k = ix3 b m k :=
  funext fun a => Fin.ext (by match a with | ⟨0, _⟩ => rfl | ⟨1, _⟩ => rfl | ⟨2, _⟩ => rfl)

/-- The reference's largest score of row `(b, m)`: the maximum-reduce over the 256 centres is the running maximum from
    its initial value -∞, and the cap by -∞ follows it. -/
theorem top_apply (b : Fin 8) (m : Fin 65536) :
    val_main_v19 (F := Ideal) x0 x1 (ix2 b m) = top (score (row x0 b m) (rows x1)) := by
  have h : S8x65536x256.Reduces [2] S8x65536 := by decide
  rw [val_main_v19_apply, val_main_v18_apply, val_main_cst_4_apply]
  unfold val_main_v17
  rw [Host.reduce_eq_fold_single FloatOps.maximumf _ _ reducesTo_S8x65536x256_S8x65536_d2 h h_S_]
  have hf : (val_main_v16 (F := Ideal) x0 x1 ∘ h.lift (ix2 b m)) = score (row x0 b m) (rows x1) := funext fun k => by
    show val_main_v16 (F := Ideal) x0 x1 (h.lift (ix2 b m) k) = _
    rw [lift_centre h b m k]
    exact score_apply x0 x1 b m k
  rw [hf]
  rfl

theorem weight_apply (b : Fin 8) (m : Fin 65536) (k : Fin 256) :
    val_main_v23 (F := Ideal) x0 x1 (ix3 b m k) = weight (score (row x0 b m) (rows x1)) k := by
  have e : idx_main_v20 (idx_main_v21 (ix3 b m k)) = ix2 b m := funext fun a => by
    match a with | ⟨0, _⟩ => rfl | ⟨1, _⟩ => rfl
  rw [val_main_v23_apply, val_main_v22_apply, val_main_v21_apply, val_main_v20_apply, e, top_apply, score_apply]
  rfl

theorem share_apply (b : Fin 8) (m : Fin 65536) (k : Fin 256) :
    val_main_v27 (F := Ideal) x0 x1 (ix3 b m k) = share (score (row x0 b m) (rows x1)) k := by
  have e : ∀ k' : Fin 256, idx_main_v24 (idx_main_v25 (idx_main_v26 (ix3 b m k))) k' = ix3 b m k' := fun k' => funext fun a => by
    match a with | ⟨0, _⟩ => rfl | ⟨1, _⟩ => rfl | ⟨2, _⟩ => rfl
  rw [val_main_v27_apply, val_main_v26_apply, val_main_v25_apply, val_main_v24_apply, val_main_cst_5_apply]
  simp only [e, weight_apply]
  unfold share
  simp only [Ideal.hostDivf_def, Ideal.ofBits_def, Ideal.ofBits_zero_f32, zero_add]

/-- The reference's last product, on the whole array, is the soft assignment of every row of its reshaped input. -/
theorem result_eq : val_main_v28 (F := Ideal) x0 x1 = result (val_main_v0 (F := Ideal) x0) x1 := by
  funext i
  obtain ⟨b, m, d, rfl⟩ : ∃ (b : Fin 8) (m : Fin 65536) (d : Fin 4), i = ix3 b m d := ⟨i 0, i 1, i 2, eq_ix3 i⟩
  have el : ∀ k : Fin 256, lidx_main_v28 (ix3 b m d) k = ix3 b m k := fun k => funext fun a => by
    match a with | ⟨0, _⟩ => rfl | ⟨1, _⟩ => rfl | ⟨2, _⟩ => rfl
  have er : ∀ k : Fin 256, ridx_main_v28 (ix3 b m d) k = ix2 k d := fun k => funext fun a => by
    match a with | ⟨0, _⟩ => rfl | ⟨1, _⟩ => rfl
  rw [val_main_v28_apply]
  simp only [el, er, share_apply]
  rfl

end Cert.ReferenceIdeal.Rows

end
-- ==== Proof.lean ====
/-
  The soft vector quantizer against its reference, on the extended reals.

  Both programs reshape the flat [8, 262144] input into 8 × 65536 rows of length 4, replace every row x by its soft
  assignment to the 256 centres C k — the scores -((|x|² - 2·⟨x, C k⟩) + |C k|²) scaled by the temperature 1, their
  softmax taken after subtracting the largest score, and the shares' combination of the centres — and flatten the rows
  back. The kernel does it tile by tile, 4096 rows at a time with the whole codebook, its two products on the matrix
  unit over operands narrowed to bf16; the reference does it on the whole array with two einsums. On the extended reals a
  change of float format is the identity and a product is a plain sum, so a row's result is one function of that row
  and the codebook whichever program computes it (Proof/SoftAssign.lean); the kernel's tiles are restrictions of that
  function and cover every row (Proof/Tile.lean, Proof/Whole.lean), and the reference's stages are its steps
  (Proof/RefRows.lean). The only textual difference, the kernel's `0 - y` against the reference's `-y`, is no difference
  on the extended reals, so the claim needs nothing of the inputs' finiteness.

  The three frames are the generated ones (the reference's is its generated run with the result dropped), and the
  idealization rewrote nothing, so `preserves` is `True`.
-/
import proofs.«166150_j89833535963913_1_alg».proof.Defs
import proofs.«166150_j89833535963913_1_alg».proof.Proof.Gen.Kernel
import proofs.«166150_j89833535963913_1_alg».proof.Proof.Gen.Kernel.Skeleton
import proofs.«166150_j89833535963913_1_alg».proof.Proof.Gen.Kernel.Launch
import proofs.«166150_j89833535963913_1_alg».proof.Proof.Gen.Kernel.Points
import proofs.«166150_j89833535963913_1_alg».proof.Proof.Gen.Kernel.Frame
import proofs.«166150_j89833535963913_1_alg».proof.Proof.Gen.KernelIdeal
import proofs.«166150_j89833535963913_1_alg».proof.Proof.Gen.KernelIdeal.Skeleton
import proofs.«166150_j89833535963913_1_alg».proof.Proof.Gen.KernelIdeal.Launch
import proofs.«166150_j89833535963913_1_alg».proof.Proof.Gen.KernelIdeal.Points
import proofs.«166150_j89833535963913_1_alg».proof.Proof.Gen.KernelIdeal.Frame
import proofs.«166150_j89833535963913_1_alg».proof.Proof.Gen.ReferenceIdeal
import proofs.«166150_j89833535963913_1_alg».proof.Proof.Gen.ReferenceIdeal.Run
import proofs.«166150_j89833535963913_1_alg».proof.Proof.Gen.ReferenceIdeal.Read
import proofs.«166150_j89833535963913_1_alg».proof.Proof.Gen.Pre_finite_inputs
import proofs.«166150_j89833535963913_1_alg».proof.Proof.Whole
import proofs.«166150_j89833535963913_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the same function of its arguments as the kernel's: reshape, soft-assign every row,
    flatten. The two programs' reshapes are the same casts between the same shapes. -/
theorem reference_answer (x0 : Cert.ReferenceIdeal.S8x262144.Idx → EReal) (x1 : Cert.ReferenceIdeal.S256x4.Idx → EReal) :
    Cert.ReferenceIdeal.Read.val_main_v29 (F := Ideal) x0 x1 = Cert.KernelIdeal.Whole.answer x0 x1 := by
  unfold Cert.ReferenceIdeal.Read.val_main_v29
  rw [Cert.ReferenceIdeal.Rows.result_eq]
  rfl

/-- From memories that agree on the two arguments both programs end with the same result, entry by entry. -/
theorem algebraic : Cert.algebraic_KernelIdeal_ReferenceIdeal := by
  intro m ρ m' ρ' _ hagree
  refine ⟨fun c => Cert.KernelIdeal.Whole.answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact reference_answer _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
